-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x224x224x64 : Shape := ⟨4, ![32, 224, 224, 64]⟩
abbrev S_ : Shape := ⟨0, ![]⟩

class Facts : Prop where
  bcast_S_S32x224x224x64 : S_.BroadcastsInDim S32x224x224x64 (![] : Fin 0 → Fin S32x224x224x64.rank)
  reducesTo_S32x224x224x64_S_d0_1_2_3 : S32x224x224x64.ReducesTo [0, 1, 2, 3] S_
  h_S_ : 0 < S_.numel

variable [Facts]

def fn {F : FTy → Type} [FloatOps F] (main_arg0 : FVec F S32x224x224x64 .f32) : IVec S_ 1 :=
  let main_v0 : FVec F S32x224x224x64 .f32 := Host.absf main_arg0
  let main_cst : FVec F S_ .f32 := constant S_ .f32 0x7F800000#32
  let main_v1 : FVec F S32x224x224x64 .f32 := broadcastInDim S32x224x224x64 ![] bcast_S_S32x224x224x64 main_cst
  let main_v2 : IVec S32x224x224x64 1 := cmpf .olt main_v0 main_v1
  let main_c : IVec S_ 1 := constantI S_ 1 1#1
  let main_v3 : IVec S_ 1 := (fun x v => Host.reduce IntOp.andi x v reducesTo_S32x224x224x64_S_d0_1_2_3 h_S_) main_v2 main_c
  main_v3
-- ==== Kernel.lean ====
abbrev S32x224x224x64 : Shape := ⟨4, ![32, 224, 224, 64]⟩
abbrev S32x112x112x256 : Shape := ⟨4, ![32, 112, 112, 256]⟩
abbrev S1x56x56x64 : Shape := ⟨4, ![1, 56, 56, 64]⟩
abbrev S1x56x56x256 : Shape := ⟨4, ![1, 56, 56, 256]⟩

abbrev nBuf : Space → Nat
  | .hbm => 2
  | .vmem => 10
  | .smem => 0
  | _ => 0

abbrev bufTy : (tb : Table) → Fin (tcTables nBuf tb) → BufTy
  | .hbm, ⟨0, _⟩ => ⟨S32x224x224x64, .f32⟩
  | .hbm, ⟨1, _⟩ => ⟨S32x112x112x256, .f32⟩
  | .local _ .vmem, ⟨0, _⟩ => ⟨S1x56x56x64, .f32⟩
  | .local _ .vmem, ⟨1, _⟩ => ⟨S1x56x56x64, .f32⟩
  | .local _ .vmem, ⟨2, _⟩ => ⟨S1x56x56x64, .f32⟩
  | .local _ .vmem, ⟨3, _⟩ => ⟨S1x56x56x64, .f32⟩
  | .local _ .vmem, ⟨4, _⟩ => ⟨S1x56x56x64, .f32⟩
  | .local _ .vmem, ⟨5, _⟩ => ⟨S1x56x56x64, .f32⟩
  | .local _ .vmem, ⟨6, _⟩ => ⟨S1x56x56x64, .f32⟩
  | .local _ .vmem, ⟨7, _⟩ => ⟨S1x56x56x64, .f32⟩
  | .local _ .vmem, ⟨8, _⟩ => ⟨S1x56x56x256, .f32⟩
  | .local _ .vmem, ⟨9, _⟩ => ⟨S1x56x56x256, .f32⟩
  | _, _ => ⟨S32x224x224x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![32, 2, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  let c0_i32_0 : BitVec 32 := 0#32
  ![arg0.toNat, arg1.toNat, v0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  let c0_i32_0 : BitVec 32 := 0#32
  ![arg0.toNat, v0.toNat, arg2.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c2_i32_0 : BitVec 32 := 2#32
  let v1 : BitVec 32 := Scalar.addi arg2 c2_i32_0
  let c0_i32 : BitVec 32 := 0#32
  let c0_i32_1 : BitVec 32 := 0#32
  ![arg0.toNat, v0.toNat, v1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x56x56x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x56x56x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x56x56x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x56x56x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x56x56x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x56x56x64_S1x56x56x64_0_0_0_0 : ∀ a, (![0, 0, 0, 0] : Fin 4 → Nat) a + S1x56x56x64.size a ≤ S1x56x56x64.size a
  h_S1x56x56x64 : 0 < S1x56x56x64.numel
  concatenates_S1x56x56x64_S1x56x56x64_S1x56x56x64_S1x56x56x64_S1x56x56x256_d3 : Shape.Concatenates [S1x56x56x64, S1x56x56x64, S1x56x56x64, S1x56x56x64] S1x56x56x256 3
  inb_S1x56x56x256_S1x56x56x256_0_0_0_0 : ∀ a, (![0, 0, 0, 0] : Fin 4 → Nat) a + S1x56x56x256.size a ≤ S1x56x56x256.size a
  h_S1x56x56x256 : 0 < S1x56x56x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x56x56x64.size a ≤ S32x224x224x64.size a
  hwx0_0 : ∀ i : grid0.Coords, EltTy.bits .f32 = 32 ∨ (Rect.block (s := S32x224x224x64) S1x56x56x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x56x56x64.size a ≤ S32x224x224x64.size a
  hwx0_1 : ∀ i : grid0.Coords, EltTy.bits .f32 = 32 ∨ (Rect.block (s := S32x224x224x64) S1x56x56x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x56x56x64.size a ≤ S32x224x224x64.size a
  hwx0_2 : ∀ i : grid0.Coords, EltTy.bits .f32 = 32 ∨ (Rect.block (s := S32x224x224x64) S1x56x56x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x56x56x64.size a ≤ S32x224x224x64.size a
  hwx0_3 : ∀ i : grid0.Coords, EltTy.bits .f32 = 32 ∨ (Rect.block (s := S32x224x224x64) S1x56x56x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x56x56x256.size a ≤ S32x112x112x256.size a
  hwx0_4 : ∀ i : grid0.Coords, EltTy.bits .f32 = 32 ∨ (Rect.block (s := S32x112x112x256) S1x56x56x256.size (cc0_transform_4 i) (hinb0_4 i)).WholeWords (EltTy.packing .f32)

variable [Facts₀]

abbrev win0_0 : Pipeline.Window sig grid0 :=
  Pipeline.Window.ofSpec (Memref.whole main_arg0) S1x56x56x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x56x56x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x56x56x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x56x56x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x56x56x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x224x224x64 : Shape := ⟨4, ![32, 224, 224, 64]⟩
abbrev S32x112x112x64 : Shape := ⟨4, ![32, 112, 112, 64]⟩
abbrev S32x112x112x256 : Shape := ⟨4, ![32, 112, 112, 256]⟩

abbrev nBuf : Space → Nat
  | .hbm => 6
  | .vmem => 0
  | .smem => 0
  | _ => 0

abbrev bufTy : (tb : Table) → Fin (tcTables nBuf tb) → BufTy
  | .hbm, ⟨0, _⟩ => ⟨S32x224x224x64, .f32⟩
  | .hbm, ⟨1, _⟩ => ⟨S32x112x112x64, .f32⟩
  | .hbm, ⟨2, _⟩ => ⟨S32x112x112x64, .f32⟩
  | .hbm, ⟨3, _⟩ => ⟨S32x112x112x64, .f32⟩
  | .hbm, ⟨4, _⟩ => ⟨S32x112x112x64, .f32⟩
  | .hbm, ⟨5, _⟩ => ⟨S32x112x112x256, .f32⟩
  | _, _ => ⟨S32x224x224x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]

class Facts₀ : Prop where
  slices_S32x224x224x64_S32x112x112x64_0_0_0_0 : S32x224x224x64.Slices ![0, 0, 0, 0] S32x112x112x64
  slices_S32x224x224x64_S32x112x112x64_0_0_112_0 : S32x224x224x64.Slices ![0, 0, 112, 0] S32x112x112x64
  slices_S32x224x224x64_S32x112x112x64_0_112_0_0 : S32x224x224x64.Slices ![0, 112, 0, 0] S32x112x112x64
  slices_S32x224x224x64_S32x112x112x64_0_112_112_0 : S32x224x224x64.Slices ![0, 112, 112, 0] S32x112x112x64
  concatenates_S32x112x112x64_S32x112x112x64_S32x112x112x64_S32x112x112x64_S32x112x112x256_d3 : Shape.Concatenates [S32x112x112x64, S32x112x112x64, S32x112x112x64, S32x112x112x64] S32x112x112x256 3

variable [Facts₀]

class Facts : Prop extends Facts₀ where

variable [Facts]
-- ==== Proof.LibSharedFrame.lean ====
/-
  A frame run for a pipelined kernel whose input windows may read ONE array through several windows.

  The library's frame run asks every window's array to be a buffer of its own, held at the full share. When two
  input windows stage blocks of the same array, the array's full share has to be dealt among them: the proof data's
  shares `q` say how, and `hsplit` shows that the buffers behind the arrays, each whole at the entry contents, make
  the proof data's arrays at entry. Everything else is as in the plain frame run: the body obligation at every
  point, an invariant that the core's scoped buffers outside the pipeline yield before the first point and yield
  back after the last, nothing owed. The conclusion is the plain frame post: every window's array ends at what the
  proof data compute for it (an input at its entry contents), every buffer that bypasses the region unchanged.
  The kernel has no semaphore of its own and does not draw from the generator.
-/
import Idealize.ShloMosaic.Lib.Pipeline.Frame

noncomputable section

namespace Idealize.ShloMosaic.Pipeline.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open TcCoe
open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run of a kernel whose input windows may share arrays: from any memory with zero counters every weakly
    fair execution of @main terminates without a fault, every window's array ending at the proof data's
    `arrAt … N` and every unscoped buffer that is no window's array at its region-entry contents. -/
theorem θ_run_frame_shared
    (hinj : Function.Injective (cellOf (nD := nD) (τ := τ) cfgs)) (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj))
    (hu₀ := (show (ownU _ : sProp 𝕄) ⊢ BI.own (emb₁ (initOf (cells cfgs hinj) (launchToks cfgs hinj))) from .rfl))
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr; · iempintro
      iexact HU)
    (hin := fun c => (show _ ⊢ (scopedRest (cfg).spec c : sProp 𝕄) from by iintro ⟨-, HR⟩; iexact HR).trans (hin c))
    (hout := fun c => (hout c).trans (by
      iintro HR
      isplitr; · iempintro
      iexact HR))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Idealize.ShloMosaic.Pipeline.SharedFrame

end
-- ==== Proof.BitsFrame.lean ====
/-
  The frame of the four-corner kernel: every weakly fair execution of @main terminates without a fault, the argument array
  ending unchanged and the result array at what the write-backs of the 128 grid points leave.

  The kernel hands ONE array, the argument, to four input windows (the four quadrants' 56 x 56 tiles). The launch therefore
  deals the array's full share among the four windows, a quarter each; the fifth window is the result's. At a grid point
  the body finds each input window's staging buffer at that window's block of the argument, concatenates the four blocks
  along the channel axis and stores the [1, 56, 56, 256] value whole into the output's staging buffer, so that buffer ends
  at the one-piece canon of the stored value. Nothing else is touched: the body has no scratch, no semaphore of its own and
  does not draw from the generator, so the invariant between points is only the scoped rest (empty here).
-/
import proofs.«139692_j24867860644147_2_alg».proof.Proof.Gen.Kernel.Launch
import proofs.«139692_j24867860644147_2_alg».proof.Proof.Gen.Kernel.Skeleton
import proofs.«139692_j24867860644147_2_alg».proof.Proof.Gen.Kernel.Points
import proofs.«139692_j24867860644147_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Corners

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: as launched, @main being the region alone. -/
abbrev V (c : Dev nD) (b : Ref sig .tc) : Buf (Elt F) ((c : Thread nD τ).loc b) := m ((c : Thread nD τ).loc b)

/-- @main is the one custom call. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the top-left tile): its current staging buffer holds its block at every point. The window is fetched
    whole, uncut and never idle, so nothing of what the buffer held before is left; stated for any proof data whose array is
    the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the top-right tile), likewise. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (the bottom-left tile), likewise. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 (the bottom-right tile), likewise. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output's buffer -/

/-- The whole [1, 56, 56, 64] tile and the whole [1, 56, 56, 256] tile: the body's loads and its one store. -/
abbrev rIn : Rect S1x56x56x64 := Rect.unit (s := S1x56x56x64) ![0, 0, 0, 0] S1x56x56x64.size inb_S1x56x56x64_S1x56x56x64_0_0_0_0
abbrev rOut : Rect S1x56x56x256 := Rect.unit (s := S1x56x56x256) ![0, 0, 0, 0] S1x56x56x256.size inb_S1x56x56x256_S1x56x56x256_0_0_0_0

/-- The output window's staging buffer after the body, from the four input blocks: the one store, of the channel
    concatenation of the four loaded tiles. -/
def outTile (x0 x1 x2 x3 : Vec F S1x56x56x64 .f32) : Vec F S1x56x56x256 .f32 :=
  View.canon [⟨rOut, k0_pay1 (View.ld x0 rIn) (View.ld x1 rIn) (View.ld x2 rIn) (View.ld x3 rIn)⟩]

/-- The one store covers the buffer. -/
theorem outCover (p0 : Vec F S1x56x56x256 .f32) (y : S1x56x56x256.Idx) :
    ∃ pc ∈ ([⟨rOut, p0⟩] : List (View.Piece (Elt F) S1x56x56x256 .f32)), y ∈ pc.1.set :=
  View.cover_of_tiled [⟨rOut, p0⟩] S1x56x56x256.size (by rfl) y

/-! ## The body's triple -/

set_option maxHeartbeats 1000000 in
/-- The kernel body on whole staging memrefs, the inputs' at contents `x0 … x3` and the output's at anything, runs to the
    continuation holding the inputs' as they were and the output's at `outTile` of them. -/
theorem sound_kernel (c : Dev nD) (E : Set ℕ) (i : grid0.Coords)
    (arg3 : Memref sig .tc .vmem S1x56x56x64 .f32) (harg3 : arg3.IsWhole) (arg4 : Memref sig .tc .vmem S1x56x56x64 .f32) (harg4 : arg4.IsWhole)
    (arg5 : Memref sig .tc .vmem S1x56x56x64 .f32) (harg5 : arg5.IsWhole) (arg6 : Memref sig .tc .vmem S1x56x56x64 .f32) (harg6 : arg6.IsWhole)
    (arg7 : Memref sig .tc .vmem S1x56x56x256 .f32) (harg7 : arg7.IsWhole)
    (x0 x1 x2 x3 : Vec F S1x56x56x64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (outTile x0 x1 x2 x3)) -∗ K ⟨⟩))
      ⊢ wp frame (wpE (defs₀ (F := F)) Variants.none c none) E (cc0__sector4_kernel i arg3 harg3 arg4 harg4 arg5 harg5 arg6 harg6 arg7 harg7) K := by
  simp only [cc0__sector4_kernel_eq_skeleton]; unfold cc0__sector4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The pipeline's proof data -/

/-- The proof data of the pipeline on core `c`: the arrays as the region finds them; after the body at point `t` each
    input's buffer at its block and the output's at `outTile` of the four blocks; the invariant the scoped rest; nothing
    owed; the argument's full share dealt in quarters to its four windows, the result's window holding its array outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outTile (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The argument's share dealt among its four windows -/

/-- The buffers behind the windows' arrays — the argument and the result, each whole at the full share at the entry
    contents — make the proof data's arrays at entry: the argument's full share splits in halves and each half in halves
    again, a quarter to each quadrant's window, all four at the argument's entry contents; the result's goes to its window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  unfold Dat.arrays Pipeline.arrBufs
  rw [bigSep_W0]
  rw [show Finset.image (Pipeline.arrRef spec0) Finset.univ = {main_arg0, main_v0} from by decide]
  rw [bigSep_insert (by decide), bigSep_singleton]
  rw [(arr_whole0 0).set_eq_univ, (arr_whole0 4).set_eq_univ]
  show iprop((((c.tc : Thread nD τ).loc main_arg0) ↦{fullShare} V m c main_arg0) ∗ (((c.tc : Thread nD τ).loc main_v0) ↦{fullShare} V m c main_v0))
    ⊢ (iprop((((c.tc : Thread nD τ).loc main_arg0) ↦{fullShare.left.left} V m c main_arg0)
        ∗ (((c.tc : Thread nD τ).loc main_arg0) ↦{fullShare.left.right} V m c main_arg0)
        ∗ (((c.tc : Thread nD τ).loc main_arg0) ↦{fullShare.right.left} V m c main_arg0)
        ∗ (((c.tc : Thread nD τ).loc main_arg0) ↦{fullShare.right.right} V m c main_arg0)
        ∗ (((c.tc : Thread nD τ).loc main_v0) ↦{fullShare} V m c main_v0)) : sProp 𝕄)
  iintro ⟨Ha, Ho⟩
  ihave Hh := (pointsTo_share (PosShare.mem_left_op_right fullShare)).1 $$ Ha
  icases Hh with ⟨Hl, Hr⟩
  ihave Hl2 := (pointsTo_share (PosShare.mem_left_op_right fullShare.left)).1 $$ Hl
  icases Hl2 with ⟨Hll, Hlr⟩
  ihave Hr2 := (pointsTo_share (PosShare.mem_left_op_right fullShare.right)).1 $$ Hr
  icases Hr2 with ⟨Hrl, Hrr⟩
  isplitl [Hll]; · iexact Hll
  isplitl [Hlr]; · iexact Hlr
  isplitl [Hrl]; · iexact Hrl
  isplitl [Hrr]; · iexact Hrr
  iexact Ho

/-! ## The run and the frame -/

set_option backward.isDefEq.respectTransparency.types false in
/-- From any memory with zero counters every weakly fair execution of @main terminates, every window's array ending at what
    the proof data compute for it. -/
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := hsplit m) (hin := fun _ => .rfl) (hout := fun _ => .rfl)

/-- The frame: the argument array ends as launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.Kernel.Corners

end
-- ==== Proof.IdealFrame.lean ====
/-
  The frame of the four-corner kernel: every weakly fair execution of @main terminates without a fault, the argument array
  ending unchanged and the result array at what the write-backs of the 128 grid points leave.

  The kernel hands ONE array, the argument, to four input windows (the four quadrants' 56 x 56 tiles). The launch therefore
  deals the array's full share among the four windows, a quarter each; the fifth window is the result's. At a grid point
  the body finds each input window's staging buffer at that window's block of the argument, concatenates the four blocks
  along the channel axis and stores the [1, 56, 56, 256] value whole into the output's staging buffer, so that buffer ends
  at the one-piece canon of the stored value. Nothing else is touched: the body has no scratch, no semaphore of its own and
  does not draw from the generator, so the invariant between points is only the scoped rest (empty here).
-/
import proofs.«139692_j24867860644147_2_alg».proof.Proof.Gen.KernelIdeal.Launch
import proofs.«139692_j24867860644147_2_alg».proof.Proof.Gen.KernelIdeal.Skeleton
import proofs.«139692_j24867860644147_2_alg».proof.Proof.Gen.KernelIdeal.Points
import proofs.«139692_j24867860644147_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Corners

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The core's buffers when the region is entered: as launched, @main being the region alone. -/
abbrev V (c : Dev nD) (b : Ref sig .tc) : Buf (Elt F) ((c : Thread nD τ).loc b) := m ((c : Thread nD τ).loc b)

/-- @main is the one custom call. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0 (the top-left tile): its current staging buffer holds its block at every point. The window is fetched
    whole, uncut and never idle, so nothing of what the buffer held before is left; stated for any proof data whose array is
    the entry contents and whose body leaves the block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1 (the top-right tile), likewise. -/
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2 (the bottom-left tile), likewise. -/
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3 (the bottom-right tile), likewise. -/
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output's buffer -/

/-- The whole [1, 56, 56, 64] tile and the whole [1, 56, 56, 256] tile: the body's loads and its one store. -/
abbrev rIn : Rect S1x56x56x64 := Rect.unit (s := S1x56x56x64) ![0, 0, 0, 0] S1x56x56x64.size inb_S1x56x56x64_S1x56x56x64_0_0_0_0
abbrev rOut : Rect S1x56x56x256 := Rect.unit (s := S1x56x56x256) ![0, 0, 0, 0] S1x56x56x256.size inb_S1x56x56x256_S1x56x56x256_0_0_0_0

/-- The output window's staging buffer after the body, from the four input blocks: the one store, of the channel
    concatenation of the four loaded tiles. -/
def outTile (x0 x1 x2 x3 : Vec F S1x56x56x64 .f32) : Vec F S1x56x56x256 .f32 :=
  View.canon [⟨rOut, k0_pay1 (View.ld x0 rIn) (View.ld x1 rIn) (View.ld x2 rIn) (View.ld x3 rIn)⟩]

/-- The one store covers the buffer. -/
theorem outCover (p0 : Vec F S1x56x56x256 .f32) (y : S1x56x56x256.Idx) :
    ∃ pc ∈ ([⟨rOut, p0⟩] : List (View.Piece (Elt F) S1x56x56x256 .f32)), y ∈ pc.1.set :=
  View.cover_of_tiled [⟨rOut, p0⟩] S1x56x56x256.size (by rfl) y

/-! ## The body's triple -/

set_option maxHeartbeats 1000000 in
/-- The kernel body on whole staging memrefs, the inputs' at contents `x0 … x3` and the output's at anything, runs to the
    continuation holding the inputs' as they were and the output's at `outTile` of them. -/
theorem sound_kernel (c : Dev nD) (E : Set ℕ) (i : grid0.Coords)
    (arg3 : Memref sig .tc .vmem S1x56x56x64 .f32) (harg3 : arg3.IsWhole) (arg4 : Memref sig .tc .vmem S1x56x56x64 .f32) (harg4 : arg4.IsWhole)
    (arg5 : Memref sig .tc .vmem S1x56x56x64 .f32) (harg5 : arg5.IsWhole) (arg6 : Memref sig .tc .vmem S1x56x56x64 .f32) (harg6 : arg6.IsWhole)
    (arg7 : Memref sig .tc .vmem S1x56x56x256 .f32) (harg7 : arg7.IsWhole)
    (x0 x1 x2 x3 : Vec F S1x56x56x64 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (outTile x0 x1 x2 x3)) -∗ K ⟨⟩))
      ⊢ wp frame (wpE (defs₀ (F := F)) Variants.none c none) E (cc0__sector4_kernel i arg3 harg3 arg4 harg4 arg5 harg5 arg6 harg6 arg7 harg7) K := by
  simp only [cc0__sector4_kernel_eq_skeleton]; unfold cc0__sector4_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (outCover _)

/-! ## The pipeline's proof data -/

/-- The proof data of the pipeline on core `c`: the arrays as the region finds them; after the body at point `t` each
    input's buffer at its block and the output's at `outTile` of the four blocks; the invariant the scoped rest; nothing
    owed; the argument's full share dealt in quarters to its four windows, the result's window holding its array outright. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (iblk m c 2 t) (iblk m c 3 t)
  Φ _ := Pipeline.scopedRest (Ix := Unit) (Name := ℕ) (U := UR sig nD τ) (Lvl := ℕ) (Val := Elt F) spec0 c
  q w := match w with
    | ⟨0, _⟩ => fullShare.left.left
    | ⟨1, _⟩ => fullShare.left.right
    | ⟨2, _⟩ => fullShare.right.left
    | ⟨3, _⟩ => fullShare.right.right
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outTile (iblk m c 0 t) (iblk m c 1 t) (iblk m c 2 t) (iblk m c 3 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The argument's share dealt among its four windows -/

/-- The buffers behind the windows' arrays — the argument and the result, each whole at the full share at the entry
    contents — make the proof data's arrays at entry: the argument's full share splits in halves and each half in halves
    again, a quarter to each quadrant's window, all four at the argument's entry contents; the result's goes to its window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  classical
  unfold Dat.arrays Pipeline.arrBufs
  rw [bigSep_W0]
  rw [show Finset.image (Pipeline.arrRef spec0) Finset.univ = {main_arg0, main_v0} from by decide]
  rw [bigSep_insert (by decide), bigSep_singleton]
  rw [(arr_whole0 0).set_eq_univ, (arr_whole0 4).set_eq_univ]
  show iprop((((c.tc : Thread nD τ).loc main_arg0) ↦{fullShare} V m c main_arg0) ∗ (((c.tc : Thread nD τ).loc main_v0) ↦{fullShare} V m c main_v0))
    ⊢ (iprop((((c.tc : Thread nD τ).loc main_arg0) ↦{fullShare.left.left} V m c main_arg0)
        ∗ (((c.tc : Thread nD τ).loc main_arg0) ↦{fullShare.left.right} V m c main_arg0)
        ∗ (((c.tc : Thread nD τ).loc main_arg0) ↦{fullShare.right.left} V m c main_arg0)
        ∗ (((c.tc : Thread nD τ).loc main_arg0) ↦{fullShare.right.right} V m c main_arg0)
        ∗ (((c.tc : Thread nD τ).loc main_v0) ↦{fullShare} V m c main_v0)) : sProp 𝕄)
  iintro ⟨Ha, Ho⟩
  ihave Hh := (pointsTo_share (PosShare.mem_left_op_right fullShare)).1 $$ Ha
  icases Hh with ⟨Hl, Hr⟩
  ihave Hl2 := (pointsTo_share (PosShare.mem_left_op_right fullShare.left)).1 $$ Hl
  icases Hl2 with ⟨Hll, Hlr⟩
  ihave Hr2 := (pointsTo_share (PosShare.mem_left_op_right fullShare.right)).1 $$ Hr
  icases Hr2 with ⟨Hrl, Hrr⟩
  isplitl [Hll]; · iexact Hll
  isplitl [Hlr]; · iexact Hlr
  isplitl [Hrl]; · iexact Hrl
  isplitl [Hrr]; · iexact Hrr
  iexact Ho

/-! ## The run and the frame -/

set_option backward.isDefEq.respectTransparency.types false in
/-- From any memory with zero counters every weakly fair execution of @main terminates, every window's array ending at what
    the proof data compute for it. -/
theorem run_main : θ_run defs (onTc (τ := τ) (main (F := F))) (s₀ m ρ) (Pipeline.FramePost cfgs (dats m) 0 (V m)) :=
  Pipeline.SharedFrame.θ_run_frame_shared cfgs (dats m) (0 : Fin 1) defs₀ Variants.none cellOf_inj winFacts₀0 block_pos0 arr_whole0 stage_whole0
    m ρ main (hbody := fun c => (body_obligation m c).loose) (howed := fun _ _ => rfl) (V := V m) (hmain := hmain m Variants.none)
    (hsplit := hsplit m) (hin := fun _ => .rfl) (hout := fun _ => .rfl)

/-- The frame: the argument array ends as launched (an input window's array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats m 0 c).arrAt_in 0 rfl _).trans (A_eq m c 0))) (run_main m ρ)

end Cert.KernelIdeal.Corners

end
-- ==== Proof.Spec.lean ====
/-
  The four-corner crop as ONE function of the argument array, index by index.

  The argument is [32, 224, 224, 64], the result [32, 112, 112, 256]. Channel `c` of the result at (b, h, w) is channel
  `c % 64` of the argument at (b, h + 112 * (c / 128), w + 112 * ((c / 64) % 2)): the channel's quarter `c / 64` names
  the quadrant (0 top-left, 1 top-right, 2 bottom-left, 3 bottom-right), whose rows start at 0 or 112 and whose columns
  start at 0 or 112. Both programs are a concatenation of four pieces of one shape along the last axis; such a
  concatenation, read at an index, is piece `c / K` at the index with last coordinate `c % K`.
-/
import Idealize.ShloMosaic.Lib.Pipeline.Value

noncomputable section

namespace Corners

open Idealize.ShloMosaic

abbrev SIn : Shape := ⟨4, ![32, 224, 224, 64]⟩
abbrev SOut : Shape := ⟨4, ![32, 112, 112, 256]⟩

/-- Where an element of the result comes from in the argument. -/
def src (i : SOut.Idx) : SIn.Idx := fun a => match a with
  | ⟨0, _⟩ => ⟨(i 0).val, (i 0).isLt⟩
  | ⟨1, _⟩ => ⟨(i 1).val + 112 * ((i 3).val / 128), by
      have h1 : (i 1).val < 112 := (i 1).isLt
      have h3 : (i 3).val < 256 := (i 3).isLt
      show (i 1).val + 112 * ((i 3).val / 128) < 224; omega⟩
  | ⟨2, _⟩ => ⟨(i 2).val + 112 * ((i 3).val / 64 % 2), by
      have h2 : (i 2).val < 112 := (i 2).isLt
      show (i 2).val + 112 * ((i 3).val / 64 % 2) < 224; omega⟩
  | ⟨3, _⟩ => ⟨(i 3).val % 64, by show (i 3).val % 64 < 64; omega⟩

/-- An index of the argument with the four coordinates of `src i` is `src i`. -/
theorem src_eq (k : SIn.Idx) (i : SOut.Idx) (h0 : (k 0).val = (i 0).val) (h1 : (k 1).val = (i 1).val + 112 * ((i 3).val / 128))
    (h2 : (k 2).val = (i 2).val + 112 * ((i 3).val / 64 % 2)) (h3 : (k 3).val = (i 3).val % 64) : k = src i :=
  funext fun a => Fin.ext (by
    match a with
    | ⟨0, _⟩ => exact h0
    | ⟨1, _⟩ => exact h1
    | ⟨2, _⟩ => exact h2
    | ⟨3, _⟩ => exact h3)

/-- The result of the four-corner crop of `a`. -/
def crop {α : Type} (a : SIn.Idx → α) : SOut.Idx → α := fun i => a (src i)

/-- Four pieces of one shape, of extent `K` along the axis, laid end to end: at an index whose axis coordinate is `c`,
    piece `c / K` at the index with the same other coordinates and axis coordinate `c % K`. -/
theorem concatenate_four_apply {α : Type} {t s : Shape} (a : Fin t.rank) (v0 v1 v2 v3 : s.Idx → α)
    (h : Shape.Concatenates [s, s, s, s] t a) (hr : s.rank = t.rank) (K : Nat) (hK : s.size (a.cast hr.symm) = K)
    (j : t.Idx) (n : Fin 4) (hn : (j a).val / K = n.val) (i : s.Idx) (hia : (i (a.cast hr.symm)).val = (j a).val % K)
    (hi : ∀ b : Fin s.rank, b.cast hr ≠ a → (i b).val = (j (b.cast hr)).val) :
    concatenate t a [⟨s, v0⟩, ⟨s, v1⟩, ⟨s, v2⟩, ⟨s, v3⟩] h j = (![v0, v1, v2, v3] : Fin 4 → s.Idx → α) n i :=
  concatenate_ofFn_apply a (![v0, v1, v2, v3] : Fin 4 → s.Idx → α) h hr K hK j n hn i hia hi

end Corners

end
-- ==== Proof.IdealValue.lean ====
/-
  What the kernel's result array holds after the run: the four-corner crop of the argument.

  At grid point (b, p, q) the body stores the channel concatenation of four [1, 56, 56, 64] tiles of the argument: the tile
  at rows 56 p .. and columns 56 q .. of image b, and the tiles 112 rows further down, 112 columns further right, and both.
  Channel `c` of that value at (h, w) is therefore channel `c % 64` of the argument at (b, 56 p + h + 112 (c / 128),
  56 q + w + 112 (c / 64 % 2)) — block (b, p, q) of the crop. The 32 * 2 * 2 blocks of [1, 56, 56, 256] tile the result, each
  written back at its own point, so the array ends at the crop everywhere.
-/
import proofs.«139692_j24867860644147_2_alg».proof.Proof.IdealFrame
import proofs.«139692_j24867860644147_2_alg».proof.Proof.Spec
import Idealize.ShloMosaic.Lib.Pipeline.Value

set_option maxRecDepth 16384

noncomputable section

namespace Cert.KernelIdeal.Corners

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F]
variable (m : (ℓ : Loc nD τ sig) → Buf (Elt F) ℓ) (ρ : Dev nD → PrngReg)

theorem off_zero : (![0, 0, 0, 0] : Fin 4 → Nat) = fun _ => 0 := funext fun a => by fin_cases a <;> rfl

/-- The stored value at an index: the tile the channel's quarter names, at the same row and column and the channel
    within the quarter. -/
theorem pay_apply (x0 x1 x2 x3 : Vec F S1x56x56x64 .f32) (j : S1x56x56x256.Idx) (n : Fin 4) (hn : (j 3).val / 64 = n.val)
    (y : S1x56x56x64.Idx) (h0 : (y 0).val = (j 0).val) (h1 : (y 1).val = (j 1).val) (h2 : (y 2).val = (j 2).val)
    (h3 : (y 3).val = (j 3).val % 64) :
    k0_pay1 x0 x1 x2 x3 j = (![x0, x1, x2, x3] : Fin 4 → Vec F S1x56x56x64 .f32) n y := by
  unfold k0_pay1
  exact _root_.Corners.concatenate_four_apply (t := S1x56x56x256) (s := S1x56x56x64) (3 : Fin 4) x0 x1 x2 x3 _ rfl 64 rfl j n hn y h3 (fun b hb => by
    match b with
    | ⟨0, _⟩ => exact h0
    | ⟨1, _⟩ => exact h1
    | ⟨2, _⟩ => exact h2
    | ⟨3, _⟩ => exact absurd rfl hb)

/-- The printed index maps, decided over the grid: each quadrant's window moves with the output's window, two blocks
    further along the rows and/or the columns; the output's block indices range over 32 x 2 x 2. -/
theorem idx_facts : ∀ t : Fin cfg0.N,
    (win0_0.index t (0 : Fin 4) = win0_4.index t (0 : Fin 4) ∧ win0_0.index t (1 : Fin 4) = win0_4.index t (1 : Fin 4)
      ∧ win0_0.index t (2 : Fin 4) = win0_4.index t (2 : Fin 4) ∧ win0_0.index t (3 : Fin 4) = 0)
    ∧ (win0_1.index t (0 : Fin 4) = win0_4.index t (0 : Fin 4) ∧ win0_1.index t (1 : Fin 4) = win0_4.index t (1 : Fin 4)
      ∧ win0_1.index t (2 : Fin 4) = win0_4.index t (2 : Fin 4) + 2 ∧ win0_1.index t (3 : Fin 4) = 0)
    ∧ (win0_2.index t (0 : Fin 4) = win0_4.index t (0 : Fin 4) ∧ win0_2.index t (1 : Fin 4) = win0_4.index t (1 : Fin 4) + 2
      ∧ win0_2.index t (2 : Fin 4) = win0_4.index t (2 : Fin 4) ∧ win0_2.index t (3 : Fin 4) = 0)
    ∧ (win0_3.index t (0 : Fin 4) = win0_4.index t (0 : Fin 4) ∧ win0_3.index t (1 : Fin 4) = win0_4.index t (1 : Fin 4) + 2
      ∧ win0_3.index t (2 : Fin 4) = win0_4.index t (2 : Fin 4) + 2 ∧ win0_3.index t (3 : Fin 4) = 0)
    ∧ win0_4.index t (0 : Fin 4) ≤ 31 ∧ win0_4.index t (1 : Fin 4) ≤ 1 ∧ win0_4.index t (2 : Fin 4) ≤ 1 ∧ win0_4.index t (3 : Fin 4) = 0 :=
  (by decide +kernel : ∀ t : Fin grid0.N, _)

/-- Every block of the result is some point's. -/
theorem idx_onto : ∀ (q0 : Fin 32) (q1 : Fin 2) (q2 : Fin 2), ∃ t : Fin cfg0.N, win0_4.index t = ![q0.val, q1.val, q2.val, 0] :=
  (by decide +kernel : ∀ (q0 : Fin 32) (q1 : Fin 2) (q2 : Fin 2), ∃ t : Fin grid0.N, win0_4.index t = ![q0.val, q1.val, q2.val, 0])

/-- What point `t` writes back is block `t` of the crop of the argument as the region finds it. -/
theorem flushed_eq (c : Dev nD) (t : Fin cfg0.N) :
    (dats m 0 c).flushed 4 t = ((cfg0.win 4).blk t).view.read (Elt F) (_root_.Corners.crop (V m c main_arg0)) := by
  show (cfg0.win 4).cut (grid0.coords t) ((dats m 0 c).after 4 t) = _
  rw [after4]
  unfold outTile
  rw [View.canon_unit_zero off_zero]
  simp only [View.ld_unit_zero (S := S1x56x56x64) off_zero]
  obtain ⟨⟨a0, a1, a2, a3⟩, ⟨b0, b1, b2, b3⟩, ⟨c0, c1, c2, c3⟩, ⟨d0, d1, d2, d3⟩, e0, e1, e2, e3⟩ := idx_facts t
  funext j
  show k0_pay1 (iblk m c 0 t) (iblk m c 1 t) (iblk m c 2 t) (iblk m c 3 t) j
    = _root_.Corners.crop (V m c main_arg0) (((cfg0.win 4).blk t).view.emb j)
  have hj0 : (j 0).val < 1 := (j 0).isLt
  have hj1 : (j 1).val < 56 := (j 1).isLt
  have hj2 : (j 2).val < 56 := (j 2).isLt
  have hj3 : (j 3).val < 256 := (j 3).isLt
  let y : S1x56x56x64.Idx := fun a => match a with
    | ⟨0, _⟩ => j 0
    | ⟨1, _⟩ => j 1
    | ⟨2, _⟩ => j 2
    | ⟨3, _⟩ => ⟨(j 3).val % 64, by show (j 3).val % 64 < 64; omega⟩
  unfold _root_.Corners.crop
  rcases (show (j 3).val / 64 = ((0 : Fin 4) : Nat) ∨ (j 3).val / 64 = ((1 : Fin 4) : Nat) ∨ (j 3).val / 64 = ((2 : Fin 4) : Nat) ∨ (j 3).val / 64 = ((3 : Fin 4) : Nat) from by
    show (j 3).val / 64 = 0 ∨ (j 3).val / 64 = 1 ∨ (j 3).val / 64 = 2 ∨ (j 3).val / 64 = 3; omega) with hq | hq | hq | hq
  · -- quadrant 0: rows h, columns w
    rw [pay_apply _ _ _ _ j 0 hq y rfl rfl rfl rfl]
    show V m c main_arg0 (((cfg0.win 0).blk t).view.emb y) = V m c main_arg0 (Corners.src (((cfg0.win 4).blk t).view.emb j))
    refine congrArg (V m c main_arg0) (Corners.src_eq _ _ ?_ ?_ ?_ ?_)
    · show win0_0.index t (0 : Fin 4) * 1 + 1 * (j 0).val = win0_4.index t (0 : Fin 4) * 1 + 1 * (j 0).val; omega
    · show win0_0.index t (1 : Fin 4) * 56 + 1 * (j 1).val = win0_4.index t (1 : Fin 4) * 56 + 1 * (j 1).val + 112 * ((win0_4.index t (3 : Fin 4) * 256 + 1 * (j 3).val) / 128); omega
    · show win0_0.index t (2 : Fin 4) * 56 + 1 * (j 2).val = win0_4.index t (2 : Fin 4) * 56 + 1 * (j 2).val + 112 * ((win0_4.index t (3 : Fin 4) * 256 + 1 * (j 3).val) / 64 % 2); omega
    · show win0_0.index t (3 : Fin 4) * 64 + 1 * ((j 3).val % 64) = (win0_4.index t (3 : Fin 4) * 256 + 1 * (j 3).val) % 64; omega
  · -- quadrant 1: rows h, columns 112 + w
    rw [pay_apply _ _ _ _ j 1 hq y rfl rfl rfl rfl]
    show V m c main_arg0 (((cfg0.win 1).blk t).view.emb y) = V m c main_arg0 (Corners.src (((cfg0.win 4).blk t).view.emb j))
    refine congrArg (V m c main_arg0) (Corners.src_eq _ _ ?_ ?_ ?_ ?_)
    · show win0_1.index t (0 : Fin 4) * 1 + 1 * (j 0).val = win0_4.index t (0 : Fin 4) * 1 + 1 * (j 0).val; omega
    · show win0_1.index t (1 : Fin 4) * 56 + 1 * (j 1).val = win0_4.index t (1 : Fin 4) * 56 + 1 * (j 1).val + 112 * ((win0_4.index t (3 : Fin 4) * 256 + 1 * (j 3).val) / 128); omega
    · show win0_1.index t (2 : Fin 4) * 56 + 1 * (j 2).val = win0_4.index t (2 : Fin 4) * 56 + 1 * (j 2).val + 112 * ((win0_4.index t (3 : Fin 4) * 256 + 1 * (j 3).val) / 64 % 2); omega
    · show win0_1.index t (3 : Fin 4) * 64 + 1 * ((j 3).val % 64) = (win0_4.index t (3 : Fin 4) * 256 + 1 * (j 3).val) % 64; omega
  · -- quadrant 2: rows 112 + h, columns w
    rw [pay_apply _ _ _ _ j 2 hq y rfl rfl rfl rfl]
    show V m c main_arg0 (((cfg0.win 2).blk t).view.emb y) = V m c main_arg0 (Corners.src (((cfg0.win 4).blk t).view.emb j))
    refine congrArg (V m c main_arg0) (Corners.src_eq _ _ ?_ ?_ ?_ ?_)
    · show win0_2.index t (0 : Fin 4) * 1 + 1 * (j 0).val = win0_4.index t (0 : Fin 4) * 1 + 1 * (j 0).val; omega
    · show win0_2.index t (1 : Fin 4) * 56 + 1 * (j 1).val = win0_4.index t (1 : Fin 4) * 56 + 1 * (j 1).val + 112 * ((win0_4.index t (3 : Fin 4) * 256 + 1 * (j 3).val) / 128); omega
    · show win0_2.index t (2 : Fin 4) * 56 + 1 * (j 2).val = win0_4.index t (2 : Fin 4) * 56 + 1 * (j 2).val + 112 * ((win0_4.index t (3 : Fin 4) * 256 + 1 * (j 3).val) / 64 % 2); omega
    · show win0_2.index t (3 : Fin 4) * 64 + 1 * ((j 3).val % 64) = (win0_4.index t (3 : Fin 4) * 256 + 1 * (j 3).val) % 64; omega
  · -- quadrant 3: rows 112 + h, columns 112 + w
    rw [pay_apply _ _ _ _ j 3 hq y rfl rfl rfl rfl]
    show V m c main_arg0 (((cfg0.win 3).blk t).view.emb y) = V m c main_arg0 (Corners.src (((cfg0.win 4).blk t).view.emb j))
    refine congrArg (V m c main_arg0) (Corners.src_eq _ _ ?_ ?_ ?_ ?_)
    · show win0_3.index t (0 : Fin 4) * 1 + 1 * (j 0).val = win0_4.index t (0 : Fin 4) * 1 + 1 * (j 0).val; omega
    · show win0_3.index t (1 : Fin 4) * 56 + 1 * (j 1).val = win0_4.index t (1 : Fin 4) * 56 + 1 * (j 1).val + 112 * ((win0_4.index t (3 : Fin 4) * 256 + 1 * (j 3).val) / 128); omega
    · show win0_3.index t (2 : Fin 4) * 56 + 1 * (j 2).val = win0_4.index t (2 : Fin 4) * 56 + 1 * (j 2).val + 112 * ((win0_4.index t (3 : Fin 4) * 256 + 1 * (j 3).val) / 64 % 2); omega
    · show win0_3.index t (3 : Fin 4) * 64 + 1 * ((j 3).val % 64) = (win0_4.index t (3 : Fin 4) * 256 + 1 * (j 3).val) % 64; omega

/-- An index of the result is in point `t`'s block iff each coordinate is in the block's range on its axis. -/
theorem mem_blk (t : Fin cfg0.N) (i : S32x112x112x256.Idx) :
    i ∈ ((cfg0.win 4).blk t).view.set ↔ ∀ a : Fin 4, win0_4.index t a * S1x56x56x256.size a ≤ (i a).val ∧ (i a).val < win0_4.index t a * S1x56x56x256.size a + S1x56x56x256.size a := by
  show i ∈ ((View.whole main_v0).slice (win0_4.rect t)).set ↔ _
  rw [View.set_slice_whole, Rect.mem_set_unit]
  exact Iff.rfl

/-- Every index of the result lies in some point's block: the point whose block indices are the image, the row over 56
    and the column over 56. -/
theorem cover (i : S32x112x112x256.Idx) : ∃ t : Fin cfg0.N, (cfg0.win 4).flush t = true ∧ i ∈ ((cfg0.win 4).blk t).view.set := by
  have hi0 : (i 0).val < 32 := (i 0).isLt
  have hi1 : (i 1).val < 112 := (i 1).isLt
  have hi2 : (i 2).val < 112 := (i 2).isLt
  have hi3 : (i 3).val < 256 := (i 3).isLt
  obtain ⟨t, ht⟩ := idx_onto ⟨(i 0).val, hi0⟩ ⟨(i 1).val / 56, by omega⟩ ⟨(i 2).val / 56, by omega⟩
  have q0 : win0_4.index t (0 : Fin 4) = (i 0).val := congrFun ht 0
  have q1 : win0_4.index t (1 : Fin 4) = (i 1).val / 56 := congrFun ht 1
  have q2 : win0_4.index t (2 : Fin 4) = (i 2).val / 56 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 56 ≤ (i 1).val ∧ (i 1).val < win0_4.index t (1 : Fin 4) * 56 + 56; omega
  | ⟨2, _⟩ => show win0_4.index t (2 : Fin 4) * 56 ≤ (i 2).val ∧ (i 2).val < win0_4.index t (2 : Fin 4) * 56 + 56; omega
  | ⟨3, _⟩ => show win0_4.index t (3 : Fin 4) * 256 ≤ (i 3).val ∧ (i 3).val < win0_4.index t (3 : Fin 4) * 256 + 256; omega

/-- The result array after the run is the crop of the argument. -/
theorem final (c : Dev nD) : (dats m 0 c).arrAt 4 cfg0.N = _root_.Corners.crop (m ((c : Thread nD τ).loc main_arg0)) :=
  (dats m 0 c).arrAt_eq_of_cover 4 (_root_.Corners.crop (V m c main_arg0)) (fun t _ => flushed_eq m c t) cover

/-- The run, read: the result at the crop of the argument, the argument unchanged. -/
theorem run : θ_run defs (onTc (τ := τ) (main (F := F))) ⟨m, fun _ => 0, ρ⟩ fun r => ∀ c : Dev nD,
      r.2.mem ((c.tc : Thread nD τ).loc main_v0) = _root_.Corners.crop (m ((c.tc : Thread nD τ).loc main_arg0))
      ∧ r.2.mem ((c.tc : Thread nD τ).loc main_arg0) = m ((c.tc : Thread nD τ).loc main_arg0) :=
  (θ_run defs _ _).mono (fun r h c => ⟨((h c).1 4).trans (final m c),
      ((h c).1 0).trans (((dats m 0 c).arrAt_in 0 rfl _).trans (A_eq m c 0))⟩)
    (run_main m ρ)

end Cert.KernelIdeal.Corners

end
-- ==== Proof.RefSide.lean ====
/-
  The reference's result, index by index: the four-corner crop of the argument.

  The reference slices the four quadrants [32, 112, 112, 64] out of the argument — rows from 0 or 112, columns from 0 or
  112 — and concatenates them along the channel axis. Channel `c` of the result is therefore channel `c % 64` of quadrant
  `c / 64`, which is the argument at rows shifted by 112 for quadrants 2 and 3 and columns shifted by 112 for quadrants 1
  and 3.
-/
import proofs.«139692_j24867860644147_2_alg».proof.Proof.Gen.ReferenceIdeal.Read
import proofs.«139692_j24867860644147_2_alg».proof.Proof.Spec

noncomputable section

namespace Cert.ReferenceIdeal.Corners

open Cert.ReferenceIdeal Cert.ReferenceIdeal.Gen Cert.ReferenceIdeal.Read
open Idealize.ShloMosaic

variable {F : FTy → Type} [FloatOps F]

/-- The last stage of the reference, the concatenation of the four slices, is the crop. -/
theorem result_eq (x0 : (⟨S32x224x224x64, .f32⟩ : BufTy).Contents (Elt F)) :
    val_main_v4 (F := F) x0 = _root_.Corners.crop x0 := by
  funext i
  have hi3 : (i 3).val < 256 := (i 3).isLt
  let y : S32x112x112x64.Idx := fun a => match a with
    | ⟨0, _⟩ => i 0
    | ⟨1, _⟩ => i 1
    | ⟨2, _⟩ => i 2
    | ⟨3, _⟩ => ⟨(i 3).val % 64, by show (i 3).val % 64 < 64; omega⟩
  unfold val_main_v4 _root_.Corners.crop
  rcases (show (i 3).val / 64 = ((0 : Fin 4) : Nat) ∨ (i 3).val / 64 = ((1 : Fin 4) : Nat) ∨ (i 3).val / 64 = ((2 : Fin 4) : Nat) ∨ (i 3).val / 64 = ((3 : Fin 4) : Nat) from by
    show (i 3).val / 64 = 0 ∨ (i 3).val / 64 = 1 ∨ (i 3).val / 64 = 2 ∨ (i 3).val / 64 = 3; omega) with hq | hq | hq | hq
  · rw [_root_.Corners.concatenate_four_apply (t := S32x112x112x256) (s := S32x112x112x64) (3 : Fin 4) _ _ _ _ _ rfl 64 rfl i 0 hq y rfl (fun b hb => by
      match b with
      | ⟨0, _⟩ => rfl
      | ⟨1, _⟩ => rfl
      | ⟨2, _⟩ => rfl
      | ⟨3, _⟩ => exact absurd rfl hb)]
    show val_main_v0 (F := F) x0 y = x0 (_root_.Corners.src i)
    rw [val_main_v0_apply]
    refine congrArg x0 (_root_.Corners.src_eq _ _ ?_ ?_ ?_ ?_)
    · show (i 0).val = (i 0).val; rfl
    · show (i 1).val = (i 1).val + 112 * ((i 3).val / 128); omega
    · show (i 2).val = (i 2).val + 112 * ((i 3).val / 64 % 2); omega
    · show (i 3).val % 64 = (i 3).val % 64; rfl
  · rw [_root_.Corners.concatenate_four_apply (t := S32x112x112x256) (s := S32x112x112x64) (3 : Fin 4) _ _ _ _ _ rfl 64 rfl i 1 hq y rfl (fun b hb => by
      match b with
      | ⟨0, _⟩ => rfl
      | ⟨1, _⟩ => rfl
      | ⟨2, _⟩ => rfl
      | ⟨3, _⟩ => exact absurd rfl hb)]
    show val_main_v1 (F := F) x0 y = x0 (_root_.Corners.src i)
    rw [val_main_v1_apply]
    refine congrArg x0 (_root_.Corners.src_eq _ _ ?_ ?_ ?_ ?_)
    · show (i 0).val = (i 0).val; rfl
    · show (i 1).val = (i 1).val + 112 * ((i 3).val / 128); omega
    · show 112 + (i 2).val = (i 2).val + 112 * ((i 3).val / 64 % 2); omega
    · show (i 3).val % 64 = (i 3).val % 64; rfl
  · rw [_root_.Corners.concatenate_four_apply (t := S32x112x112x256) (s := S32x112x112x64) (3 : Fin 4) _ _ _ _ _ rfl 64 rfl i 2 hq y rfl (fun b hb => by
      match b with
      | ⟨0, _⟩ => rfl
      | ⟨1, _⟩ => rfl
      | ⟨2, _⟩ => rfl
      | ⟨3, _⟩ => exact absurd rfl hb)]
    show val_main_v2 (F := F) x0 y = x0 (_root_.Corners.src i)
    rw [val_main_v2_apply]
    refine congrArg x0 (_root_.Corners.src_eq _ _ ?_ ?_ ?_ ?_)
    · show (i 0).val = (i 0).val; rfl
    · show 112 + (i 1).val = (i 1).val + 112 * ((i 3).val / 128); omega
    · show (i 2).val = (i 2).val + 112 * ((i 3).val / 64 % 2); omega
    · show (i 3).val % 64 = (i 3).val % 64; rfl
  · rw [_root_.Corners.concatenate_four_apply (t := S32x112x112x256) (s := S32x112x112x64) (3 : Fin 4) _ _ _ _ _ rfl 64 rfl i 3 hq y rfl (fun b hb => by
      match b with
      | ⟨0, _⟩ => rfl
      | ⟨1, _⟩ => rfl
      | ⟨2, _⟩ => rfl
      | ⟨3, _⟩ => exact absurd rfl hb)]
    show val_main_v3 (F := F) x0 y = x0 (_root_.Corners.src i)
    rw [val_main_v3_apply]
    refine congrArg x0 (_root_.Corners.src_eq _ _ ?_ ?_ ?_ ?_)
    · show (i 0).val = (i 0).val; rfl
    · show 112 + (i 1).val = (i 1).val + 112 * ((i 3).val / 128); omega
    · show 112 + (i 2).val = (i 2).val + 112 * ((i 3).val / 64 % 2); omega
    · show (i 3).val % 64 = (i 3).val % 64; rfl

end Cert.ReferenceIdeal.Corners

end
-- ==== Proof.lean ====
/-
  The certificate of the four-corner crop kernel against its reference.

  The kernel reads ONE argument [32, 224, 224, 64] through four windows (the four quadrants, in 56 x 56 tiles) and writes, at
  each of 32 x 2 x 2 grid points, the channel concatenation of the four tiles into a [1, 56, 56, 256] block of the result.
  The reference slices the four quadrants and concatenates them along the channels. Both results are the same function of
  the argument, index by index (Spec.lean's `crop`): channel `c` at (b, h, w) is channel `c % 64` of the argument at
  (b, h + 112 (c / 128), w + 112 (c / 64 % 2)). Nothing is computed on the elements, so no fact about them — finiteness
  included — is used, and the two sides are equal at any instance of the floats.

  Frames: the kernel's, at the word-level and at the ideal instance, by the frame run for windows that share an array
  (the argument's full share dealt in quarters to its four windows); the reference's is its run with the result dropped.
  The idealization rewrote nothing, so there is nothing to preserve.
-/
import proofs.«139692_j24867860644147_2_alg».proof.Defs
import proofs.«139692_j24867860644147_2_alg».proof.Proof.Gen.Kernel
import proofs.«139692_j24867860644147_2_alg».proof.Proof.Gen.KernelIdeal
import proofs.«139692_j24867860644147_2_alg».proof.Proof.Gen.ReferenceIdeal
import proofs.«139692_j24867860644147_2_alg».proof.Proof.Gen.Pre_finite_inputs
import proofs.«139692_j24867860644147_2_alg».proof.Proof.BitsFrame
import proofs.«139692_j24867860644147_2_alg».proof.Proof.IdealValue
import proofs.«139692_j24867860644147_2_alg».proof.Proof.RefSide

noncomputable section

namespace Cert.Proof

open Idealize.ShloMosaic Idealize.ShloMosaic.TcCoe Idealize.SL.Sem

/-- The word-level kernel terminates and leaves the argument as launched. -/
theorem frame_kernel : Cert.frame_Kernel := fun m ρ _ => Cert.Kernel.Corners.frame m ρ

/-- So does the kernel read at the ideal instance. -/
theorem frame_kernelIdeal : Cert.frame_KernelIdeal := fun m ρ _ => Cert.KernelIdeal.Corners.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the argument both programs end with the crop of the argument in their results. -/
theorem algebraic : Cert.algebraic_KernelIdeal_ReferenceIdeal := by
  intro m ρ m' ρ' _ hagree
  refine ⟨fun c => _root_.Corners.crop (m ((c.tc : Thread Cert.KernelIdeal.nD Cert.KernelIdeal.τ).loc Cert.KernelIdeal.main_arg0)),
    Cert.KernelIdeal.Corners.run (F := Ideal) m ρ, ?_⟩
  refine (θ_run Cert.ReferenceIdeal.defs _ _).mono (fun _ h c => ⟨(h c).1.trans ?_, (h c).2⟩)
    (Cert.ReferenceIdeal.Value.run (F := Ideal) m' ρ')
  exact (Cert.ReferenceIdeal.Corners.result_eq (F := Ideal) _).trans (congrArg _root_.Corners.crop (hagree c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
